-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x64x64 : Shape := ⟨4, ![8, 512, 64, 64]⟩
abbrev S8x512x512 : Shape := ⟨3, ![8, 512, 512]⟩
abbrev S1 : Shape := ⟨1, ![1]⟩
abbrev S_ : Shape := ⟨0, ![]⟩

class Facts : Prop where
  bcast_S_S8x512x64x64 : S_.BroadcastsInDim S8x512x64x64 (![] : Fin 0 → Fin S8x512x64x64.rank)
  reducesTo_S8x512x64x64_S_d0_1_2_3 : S8x512x64x64.ReducesTo [0, 1, 2, 3] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  bcast_S_S1 : S_.BroadcastsInDim S1 (![] : Fin 0 → Fin S1.rank)
  reducesTo_S1_S_d0 : S1.ReducesTo [0] S_

variable [Facts]

def fn {F : FTy → Type} [FloatOps F] (main_arg0 : FVec F S8x512x64x64 .f32) (main_arg1 : FVec F S8x512x512 .f32) (main_arg2 : FVec F S1 .f32) : IVec S_ 1 :=
  let main_v0 : FVec F S8x512x64x64 .f32 := Host.absf main_arg0
  let main_cst : FVec F S_ .f32 := constant S_ .f32 0x7F800000#32
  let main_v1 : FVec F S8x512x64x64 .f32 := broadcastInDim S8x512x64x64 ![] bcast_S_S8x512x64x64 main_cst
  let main_v2 : IVec S8x512x64x64 1 := cmpf .olt main_v0 main_v1
  let main_c : IVec S_ 1 := constantI S_ 1 1#1
  let main_v3 : IVec S_ 1 := (fun x v => Host.reduce IntOp.andi x v reducesTo_S8x512x64x64_S_d0_1_2_3 h_S_) main_v2 main_c
  let main_v4 : FVec F S8x512x512 .f32 := Host.absf main_arg1
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S8x512x64x64 : Shape := ⟨4, ![8, 512, 64, 64]⟩
abbrev S8x512x512 : Shape := ⟨3, ![8, 512, 512]⟩
abbrev S1 : Shape := ⟨1, ![1]⟩
abbrev S8x512x4096 : Shape := ⟨3, ![8, 512, 4096]⟩
abbrev S1x512x4096 : Shape := ⟨3, ![1, 512, 4096]⟩
abbrev S1x512x512 : Shape := ⟨3, ![1, 512, 512]⟩
abbrev S512x4096 : Shape := ⟨2, ![512, 4096]⟩
abbrev S512x512 : Shape := ⟨2, ![512, 512]⟩
abbrev S512 : Shape := ⟨1, ![512]⟩
abbrev S512x1 : Shape := ⟨2, ![512, 1]⟩
abbrev S1x1 : Shape := ⟨2, ![1, 1]⟩

abbrev nBuf : Space → Nat
  | .hbm => 6
  | .vmem => 7
  | .smem => 0
  | _ => 0

abbrev bufTy : (tb : Table) → Fin (tcTables nBuf tb) → BufTy
  | .hbm, ⟨0, _⟩ => ⟨S8x512x64x64, .f32⟩
  | .hbm, ⟨1, _⟩ => ⟨S8x512x512, .f32⟩
  | .hbm, ⟨2, _⟩ => ⟨S1, .f32⟩
  | .hbm, ⟨3, _⟩ => ⟨S8x512x4096, .f32⟩
  | .hbm, ⟨4, _⟩ => ⟨S8x512x4096, .f32⟩
  | .hbm, ⟨5, _⟩ => ⟨S8x512x64x64, .f32⟩
  | .local _ .vmem, ⟨0, _⟩ => ⟨S1x512x4096, .f32⟩
  | .local _ .vmem, ⟨1, _⟩ => ⟨S1x512x4096, .f32⟩
  | .local _ .vmem, ⟨2, _⟩ => ⟨S1x512x512, .f32⟩
  | .local _ .vmem, ⟨3, _⟩ => ⟨S1x512x512, .f32⟩
  | .local _ .vmem, ⟨4, _⟩ => ⟨S1, .f32⟩
  | .local _ .vmem, ⟨5, _⟩ => ⟨S1x512x4096, .f32⟩
  | .local _ .vmem, ⟨6, _⟩ => ⟨S1x512x4096, .f32⟩
  | _, _ => ⟨S8x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c512_i32 : BitVec 32 := 512#32
  let v31 : BitVec 32 := Scalar.muli c0_i32 c512_i32
  v31
def k0_off1 (c0_i32 : BitVec 32) : Fin 3 → Nat :=
  let c0_11 : Index := 0#32
  let c0_12 : Index := 0#32
  let c512_i32 : BitVec 32 := 512#32
  let v31 : BitVec 32 := Scalar.muli c0_i32 c512_i32
  let v32 : BitVec 32 := v31
  let v33 : Index := Scalar.indexCast v32
  ![0, 0, v33.toNat]
def k0_mult2 : BitVec 32 :=
  let c1_i32 : BitVec 32 := 1#32
  let c512_i32_16 : BitVec 32 := 512#32
  let v45 : BitVec 32 := Scalar.muli c1_i32 c512_i32_16
  v45
def k0_mult3 : BitVec 32 :=
  let c2_i32 : BitVec 32 := 2#32
  let c512_i32_22 : BitVec 32 := 512#32
  let v59 : BitVec 32 := Scalar.muli c2_i32 c512_i32_22
  v59
def k0_mult4 : BitVec 32 :=
  let c3_i32 : BitVec 32 := 3#32
  let c512_i32_28 : BitVec 32 := 512#32
  let v73 : BitVec 32 := Scalar.muli c3_i32 c512_i32_28
  v73
def k0_mult5 : BitVec 32 :=
  let c4_i32 : BitVec 32 := 4#32
  let c512_i32_34 : BitVec 32 := 512#32
  let v87 : BitVec 32 := Scalar.muli c4_i32 c512_i32_34
  v87
def k0_mult6 : BitVec 32 :=
  let c5_i32 : BitVec 32 := 5#32
  let c512_i32_40 : BitVec 32 := 512#32
  let v101 : BitVec 32 := Scalar.muli c5_i32 c512_i32_40
  v101
def k0_mult7 : BitVec 32 :=
  let c6_i32 : BitVec 32 := 6#32
  let c512_i32_46 : BitVec 32 := 512#32
  let v115 : BitVec 32 := Scalar.muli c6_i32 c512_i32_46
  v115
def k0_mult8 : BitVec 32 :=
  let c7_i32 : BitVec 32 := 7#32
  let c512_i32_52 : BitVec 32 := 512#32
  let v129 : BitVec 32 := Scalar.muli c7_i32 c512_i32_52
  v129
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x512x64x64_S8x512x4096 : S8x512x64x64.ShapeCasts S8x512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  reduces_S512x512_S512 : S512x512.Reduces [1] S512
  shapeCasts_S512_S512x1 : S512.ShapeCasts S512x1
  broadcasts_S512x1_S512x512 : S512x1.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S1_S1_0 : ∀ a, (![0] : Fin 1 → Nat) a + S1.size a ≤ S1.size a
  h_S1 : 0 < S1.numel
  shapeCasts_S1_S1x1 : S1.ShapeCasts S1x1
  broadcasts_S1x1_S512x512 : S1x1.Broadcasts S512x512
  shapeCasts_S512x512_S1x512x512 : S512x512.ShapeCasts S1x512x512
  shapeCasts_S8x512x4096_S8x512x64x64 : S8x512x4096.ShapeCasts S8x512x64x64
  dot_S512x4096_S512x4096_S512x512_1_1_0_0_n_n_wf : DotDims.WF S512x4096 S512x4096 S512x512 [1] [1] [0] [0] [] []
  dot_S512x512_S512x512_S512x512_0_0_1_1_n_n_wf : DotDims.WF S512x512 S512x512 S512x512 [0] [0] [1] [1] [] []
  hrank0 : 0 < grid0.rank
  k0_mult1_dvd : 512 ∣ k0_mult1.toNat
  k0_off1_inb : ∀ (r : Fin 8), ∀ a, (k0_off1 (BitVec.ofNat 32 r.val)) a + S1x512x512.size a ≤ S1x512x4096.size a
  k0_mult2_dvd : 512 ∣ k0_mult2.toNat
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S8x512x4096.size a
  hwx0_0 : ∀ i : grid0.Coords, EltTy.bits .f32 = 32 ∨ (Rect.block (s := S8x512x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x512.size a
  hwx0_1 : ∀ i : grid0.Coords, EltTy.bits .f32 = 32 ∨ (Rect.block (s := S8x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x4096.size a ≤ S8x512x4096.size a
  hwx0_3 : ∀ i : grid0.Coords, EltTy.bits .f32 = 32 ∨ (Rect.block (s := S8x512x4096) S1x512x4096.size (cc0_transform_3 i) (hinb0_3 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf
def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf

abbrev win0_0 : Pipeline.Window sig grid0 :=
  Pipeline.Window.ofSpec (Memref.whole main_v0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x512x64x64 : Shape := ⟨4, ![8, 512, 64, 64]⟩
abbrev S8x512x512 : Shape := ⟨3, ![8, 512, 512]⟩
abbrev S1 : Shape := ⟨1, ![1]⟩
abbrev S8x512x4096 : Shape := ⟨3, ![8, 512, 4096]⟩
abbrev S_ : Shape := ⟨0, ![]⟩
abbrev S8x512 : Shape := ⟨2, ![8, 512]⟩
abbrev S8x512x1 : Shape := ⟨3, ![8, 512, 1]⟩
abbrev S1x1x1x1 : Shape := ⟨4, ![1, 1, 1, 1]⟩

abbrev nBuf : Space → Nat
  | .hbm => 45
  | .vmem => 0
  | .smem => 0
  | _ => 0

abbrev bufTy : (tb : Table) → Fin (tcTables nBuf tb) → BufTy
  | .hbm, ⟨0, _⟩ => ⟨S8x512x64x64, .f32⟩
  | .hbm, ⟨1, _⟩ => ⟨S8x512x512, .f32⟩
  | .hbm, ⟨2, _⟩ => ⟨S1, .f32⟩
  | .hbm, ⟨3, _⟩ => ⟨S8x512x4096, .f32⟩
  | .hbm, ⟨4, _⟩ => ⟨S8x512x512, .f32⟩
  | .hbm, ⟨5, _⟩ => ⟨S_, .f32⟩
  | .hbm, ⟨6, _⟩ => ⟨S8x512, .f32⟩
  | .hbm, ⟨7, _⟩ => ⟨S8x512x1, .f32⟩
  | .hbm, ⟨8, _⟩ => ⟨S8x512x512, .f32⟩
  | .hbm, ⟨9, _⟩ => ⟨S8x512x512, .f32⟩
  | .hbm, ⟨10, _⟩ => ⟨S_, .f32⟩
  | .hbm, ⟨11, _⟩ => ⟨S8x512, .f32⟩
  | .hbm, ⟨12, _⟩ => ⟨S_, .f32⟩
  | .hbm, ⟨13, _⟩ => ⟨S8x512, .f32⟩
  | .hbm, ⟨14, _⟩ => ⟨S8x512, .f32⟩
  | .hbm, ⟨15, _⟩ => ⟨S8x512x1, .f32⟩
  | .hbm, ⟨16, _⟩ => ⟨S8x512x512, .f32⟩
  | .hbm, ⟨17, _⟩ => ⟨S8x512x512, .f32⟩
  | .hbm, ⟨18, _⟩ => ⟨S8x512x512, .f32⟩
  | .hbm, ⟨19, _⟩ => ⟨S_, .f32⟩
  | .hbm, ⟨20, _⟩ => ⟨S8x512, .f32⟩
  | .hbm, ⟨21, _⟩ => ⟨S8x512x1, .f32⟩
  | .hbm, ⟨22, _⟩ => ⟨S8x512x512, .f32⟩
  | .hbm, ⟨23, _⟩ => ⟨S8x512x512, .f32⟩
  | .hbm, ⟨24, _⟩ => ⟨S8x512x512, .f32⟩
  | .hbm, ⟨25, _⟩ => ⟨S_, .f32⟩
  | .hbm, ⟨26, _⟩ => ⟨S8x512, .f32⟩
  | .hbm, ⟨27, _⟩ => ⟨S_, .f32⟩
  | .hbm, ⟨28, _⟩ => ⟨S8x512, .f32⟩
  | .hbm, ⟨29, _⟩ => ⟨S8x512, .f32⟩
  | .hbm, ⟨30, _⟩ => ⟨S8x512x1, .f32⟩
  | .hbm, ⟨31, _⟩ => ⟨S8x512x512, .f32⟩
  | .hbm, ⟨32, _⟩ => ⟨S8x512x512, .f32⟩
  | .hbm, ⟨33, _⟩ => ⟨S8x512x512, .f32⟩
  | .hbm, ⟨34, _⟩ => ⟨S_, .f32⟩
  | .hbm, ⟨35, _⟩ => ⟨S8x512, .f32⟩
  | .hbm, ⟨36, _⟩ => ⟨S8x512x1, .f32⟩
  | .hbm, ⟨37, _⟩ => ⟨S8x512x512, .f32⟩
  | .hbm, ⟨38, _⟩ => ⟨S8x512x512, .f32⟩
  | .hbm, ⟨39, _⟩ => ⟨S8x512x4096, .f32⟩
  | .hbm, ⟨40, _⟩ => ⟨S8x512x64x64, .f32⟩
  | .hbm, ⟨41, _⟩ => ⟨S1x1x1x1, .f32⟩
  | .hbm, ⟨42, _⟩ => ⟨S8x512x64x64, .f32⟩
  | .hbm, ⟨43, _⟩ => ⟨S8x512x64x64, .f32⟩
  | .hbm, ⟨44, _⟩ => ⟨S8x512x64x64, .f32⟩
  | _, _ => ⟨S8x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  shapeCasts_S8x512x64x64_S8x512x4096 : S8x512x64x64.ShapeCasts S8x512x4096
  reducesTo_S8x512x512_S8x512_d2 : S8x512x512.ReducesTo [2] S8x512
  h_S_ : 0 < S_.numel
  bcast_S8x512_S8x512x1_0_1 : S8x512.BroadcastsInDim S8x512x1 (![0, 1] : Fin 2 → Fin S8x512x1.rank)
  bcast_S8x512x1_S8x512x512_0_1_2 : S8x512x1.BroadcastsInDim S8x512x512 (![0, 1, 2] : Fin 3 → Fin S8x512x512.rank)
  bcast_S_S8x512 : S_.BroadcastsInDim S8x512 (![] : Fin 0 → Fin S8x512.rank)
  shapeCasts_S8x512x4096_S8x512x64x64 : S8x512x4096.ShapeCasts S8x512x64x64
  bcast_S1_S1x1x1x1_3 : S1.BroadcastsInDim S1x1x1x1 (![3] : Fin 1 → Fin S1x1x1x1.rank)
  bcast_S1x1x1x1_S8x512x64x64_0_1_2_3 : S1x1x1x1.BroadcastsInDim S8x512x64x64 (![0, 1, 2, 3] : Fin 4 → Fin S8x512x64x64.rank)
  dot_S8x512x4096_S8x512x4096_S8x512x512_2_2_1_1_0_0_wf : DotDims.WF S8x512x4096 S8x512x4096 S8x512x512 [2] [2] [1] [1] [0] [0]
  dot_S8x512x512_S8x512x4096_S8x512x4096_1_1_2_2_0_0_wf : DotDims.WF S8x512x512 S8x512x4096 S8x512x4096 [1] [1] [2] [2] [0] [0]

variable [Facts₀]

def dot_S8x512x4096_S8x512x4096_S8x512x512_2_2_1_1_0_0 : DotDims S8x512x4096 S8x512x4096 S8x512x512 where
  lhsContracting := [2]
  rhsContracting := [2]
  lhsNonContracting := [1]
  rhsNonContracting := [1]
  lhsBatch := [0]
  rhsBatch := [0]
  wf := dot_S8x512x4096_S8x512x4096_S8x512x512_2_2_1_1_0_0_wf
def dot_S8x512x512_S8x512x4096_S8x512x4096_1_1_2_2_0_0 : DotDims S8x512x512 S8x512x4096 S8x512x4096 where
  lhsContracting := [1]
  rhsContracting := [1]
  lhsNonContracting := [2]
  rhsNonContracting := [2]
  lhsBatch := [0]
  rhsBatch := [0]
  wf := dot_S8x512x512_S8x512x4096_S8x512x4096_1_1_2_2_0_0_wf

class Facts : Prop extends Facts₀ where

variable [Facts]
-- ==== Proof.LibColumn.lean ====
/- A per-row statistic laid out as a column and spread back over the row.

   A kernel that reduces each row of an [a, b] block to one number (a maximum, a sum) keeps the result as a
   vector of length a, re-lays it as an [a, 1] column and broadcasts the column over the b positions of each
   row.  Read at (p, c) the column and its broadcast are the statistic of row p. -/
import Idealize.ShloMosaic.Lib.Pipeline.Value
import Idealize.ShloMosaic.Lib.ValueIdx

namespace Cert.LibColumn

open Idealize.ShloMosaic Idealize.ShloMosaic.ValueIdx

variable {α : Type}

/-- A vector of length a re-laid as an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Both steps at once: the statistic of row p, at every position of the row. -/
theorem broadcastTo_shapeCast_column_apply {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Cert.LibColumn
-- ==== Proof.LibRowSoftmax.lean ====
/- Row maxima and the softmax of a row, as a kernel and as a host program compute them, read at an index.

   For a row r of finitely many extended reals and a starting value z, `maxFrom z r` is the largest of z and the
   entries of r, and `softmaxFrom z r j = exp (r j - maxFrom z r) / Σ_k exp (r k - maxFrom z r)`.
   A kernel takes the maximum (and the sum) of every row of an [a, b] matrix as a vector of length a, re-lays
   it as an [a, 1] column and spreads the column over the row; a host program reduces the last axis of an
   [n, a, b] stack.  Read at an index, each is `maxFrom` (or the plain sum) of that row, so the kernel's
   subtract-exponentiate-normalise chain is `softmaxFrom` of the row, entry by entry. -/
import Idealize.ShloMosaic.Lib.Pipeline.Value
import Idealize.ShloMosaic.Lib.ValueIdx
import Idealize.ShloMosaic.PureOps.Ideal.Laws
import proofs.«168826_j19928648253730_2_alg».proof.Proof.LibColumn

noncomputable section

namespace Cert.LibRowSoftmax

open Idealize.ShloMosaic Idealize.ShloMosaic.ValueIdx

/-- The largest of `z` and the entries of a row. -/
def maxFrom {b : ℕ} (z : EReal) (r : Fin b → EReal) : EReal := (Finset.univ : Finset (Fin b)).fold max z r

/-- The starting value is below the maximum taken from it. -/
theorem le_maxFrom {b : ℕ} (z : EReal) (r : Fin b → EReal) : z ≤ maxFrom z r :=
  (Finset.le_fold_max z).mpr (Or.inl le_rfl)

/-- Taking the larger of the starting value and the maximum taken from it changes nothing. -/
theorem max_maxFrom {b : ℕ} (z : EReal) (r : Fin b → EReal) : max z (maxFrom z r) = maxFrom z r :=
  max_eq_right (le_maxFrom z r)

/-- The softmax of a row, its entries centred at their maximum taken from `z`. -/
def softmaxFrom {b : ℕ} (z : EReal) (r : Fin b → EReal) (j : Fin b) : EReal :=
  Ideal.div (Ideal.exp (r j - maxFrom z r)) (∑ k : Fin b, Ideal.exp (r k - maxFrom z r))

/-! ## A kernel's reductions along the rows of an [a, b] matrix -/

/-- Row p with column k put back is entry (p, k). -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- The maximum over each row, at row p: the largest of the accumulator's value and the row's entries. -/
theorem multiReduction_max_row {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ v acc h hφ hacc (ix1 p) = maxFrom (Ideal.ofBits φ acc) (fun k => v (ix2 p k)) :=
  (Ideal.multiReduction_maximumf_single v acc h hφ hacc (ix1 p)).trans
    (congrArg (fun f => (Finset.univ : Finset (Fin b)).fold max (Ideal.ofBits φ acc) f)
      (funext fun k => congrArg v (lift_row h p k)))

/-- The sum over each row, at row p. -/
theorem multiReduction_add_row {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- The kernel's chain on an f32 [a, b] matrix: the row maxima from -inf as a column spread over the rows,
    subtracted; the exponential; the row sums from zero likewise; the quotient. -/
def rowSoftmax {a b : ℕ} (e : FVec Ideal ⟨2, ![a, b]⟩ .f32) (hR : (⟨2, ![a, b]⟩ : Shape).Reduces [1] ⟨1, ![a]⟩)
    (hC : (⟨1, ![a]⟩ : Shape).ShapeCasts ⟨2, ![a, 1]⟩) (hB : (⟨2, ![a, 1]⟩ : Shape).Broadcasts ⟨2, ![a, b]⟩) :
    FVec Ideal ⟨2, ![a, b]⟩ .f32 :=
  divf
    (exp (subf e (broadcastTo ⟨2, ![a, b]⟩ (shapeCast ⟨2, ![a, 1]⟩
      (multiReduction .maximumf [1] ⟨1, ![a]⟩ e 0xFF800000#32 hR (.inl rfl) rfl) hC) hB)))
    (broadcastTo ⟨2, ![a, b]⟩ (shapeCast ⟨2, ![a, 1]⟩
      (multiReduction .add [1] ⟨1, ![a]⟩
        (exp (subf e (broadcastTo ⟨2, ![a, b]⟩ (shapeCast ⟨2, ![a, 1]⟩
          (multiReduction .maximumf [1] ⟨1, ![a]⟩ e 0xFF800000#32 hR (.inl rfl) rfl) hC) hB)))
        0x00000000#32 hR (.inl rfl) rfl) hC) hB)

/-- Entry (p, c) of the kernel's chain is the softmax of row p at c. -/
theorem rowSoftmax_apply {a b : ℕ} (e : FVec Ideal ⟨2, ![a, b]⟩ .f32) (hR : (⟨2, ![a, b]⟩ : Shape).Reduces [1] ⟨1, ![a]⟩)
    (hC : (⟨1, ![a]⟩ : Shape).ShapeCasts ⟨2, ![a, 1]⟩) (hB : (⟨2, ![a, 1]⟩ : Shape).Broadcasts ⟨2, ![a, b]⟩)
    (p : Fin a) (c : Fin b) :
    rowSoftmax e hR hC hB (ix2 p c) = softmaxFrom (Ideal.ofBits .f32 0xFF800000#32) (fun k => e (ix2 p k)) c := by
  have hm : ∀ c' : Fin b, broadcastTo ⟨2, ![a, b]⟩ (shapeCast ⟨2, ![a, 1]⟩
      (multiReduction .maximumf [1] ⟨1, ![a]⟩ e 0xFF800000#32 hR (.inl rfl) rfl) hC) hB (ix2 p c')
      = maxFrom (Ideal.ofBits .f32 0xFF800000#32) (fun k => e (ix2 p k)) := fun c' =>
    (Cert.LibColumn.broadcastTo_shapeCast_column_apply _ hC hB p c').trans (multiReduction_max_row e _ hR _ _ p)
  have hs : ∀ (u : FVec Ideal ⟨2, ![a, b]⟩ .f32), broadcastTo ⟨2, ![a, b]⟩ (shapeCast ⟨2, ![a, 1]⟩
      (multiReduction .add [1] ⟨1, ![a]⟩ u 0x00000000#32 hR (.inl rfl) rfl) hC) hB (ix2 p c)
      = ∑ k : Fin b, u (ix2 p k) := fun u =>
    (Cert.LibColumn.broadcastTo_shapeCast_column_apply _ hC hB p c).trans (multiReduction_add_row u _ hR _ _ p)
  unfold rowSoftmax softmaxFrom
  refine (divf_apply _ _ _).trans ?_
  rw [hs]
  simp only [exp, subf, Ideal.exp_def, Ideal.subf_def, hm]

/-! ## A host program's reduction along the last axis of an [n, a, b] stack -/

/-- Row (d, p) with position k put back is entry (d, p, k). -/
theorem lift_row3 {n a b : ℕ} (h : (⟨3, ![n, a, b]⟩ : Shape).Reduces [2] ⟨2, ![n, a]⟩) (d : Fin n) (p : Fin a) (k : Fin b) :
    h.lift (ix2 d p) k = ix3 d p k :=
  funext fun c => Fin.ext (by match c with | ⟨0, _⟩ => rfl | ⟨1, _⟩ => rfl | ⟨2, _⟩ => rfl)

/-- The host's maximum along the last axis, at row (d, p): the largest of the initial value and the row's entries. -/
theorem hostReduce_max_row3 {n a b : ℕ} {u : Shape} (x : (⟨3, ![n, a, b]⟩ : Shape).Idx → Ideal .f32) (init : u.Idx → Ideal .f32)
    (h' : (⟨3, ![n, a, b]⟩ : Shape).ReducesTo [2] ⟨2, ![n, a]⟩) (h : (⟨3, ![n, a, b]⟩ : Shape).Reduces [2] ⟨2, ![n, a]⟩)
    (hu : 0 < u.numel) (d : Fin n) (p : Fin a) :
    Host.reduce FloatOps.maximumf x init h' hu (ix2 d p) = maxFrom (init (Shape.Idx.first hu)) (fun k => x (ix3 d p k)) :=
  (Host.reduce_eq_fold_single FloatOps.maximumf x init h' h hu (ix2 d p)).trans
    (congrArg (fun f => (Finset.univ : Finset (Fin b)).fold max (init (Shape.Idx.first hu)) f)
      (funext fun k => congrArg x (lift_row3 h d p k)))

end Cert.LibRowSoftmax

end
-- ==== Proof.ChannelAttention.lean ====
/- Attention between the channels of one sample, as a function of extended reals.

   A sample is a matrix q with c rows (channels) and n columns (positions).  The energy of channels i and j is
   their inner product over the positions.  Each row of energies is turned round, (largest of the row) minus
   the entry, and sent through a softmax; a bias matrix b is added and the rows go through a second softmax.
   Column j of the resulting attention weighs the channels: position k of output channel j is
   g * Σ_i attention[i, j] * q[i, k] + q[j, k].  Every maximum is taken from the starting value z. -/
import proofs.«168826_j19928648253730_2_alg».proof.Proof.LibRowSoftmax

noncomputable section

namespace Cert.ChannelAttention

open Cert.LibRowSoftmax Idealize.ShloMosaic Idealize.ShloMosaic.ValueIdx

variable {c n : ℕ}

/-- The inner product of channels i and j over the positions. -/
def energy (q : Fin c → Fin n → EReal) (i j : Fin c) : EReal := ∑ k : Fin n, q i k * q j k

/-- Row i of the energies turned round: its maximum minus each entry. -/
def centred (z : EReal) (q : Fin c → Fin n → EReal) (i j : Fin c) : EReal := maxFrom z (energy q i) - energy q i j

/-- Row i of the attention: softmax of (softmax of the turned-round energies plus the bias). -/
def attention (z : EReal) (q : Fin c → Fin n → EReal) (b : Fin c → Fin c → EReal) (i : Fin c) : Fin c → EReal :=
  softmaxFrom z (fun j => softmaxFrom z (centred z q i) j + b i j)

/-- Position k of output channel j: the channels weighed by column j of the attention, scaled, plus the input. -/
def attended (z : EReal) (q : Fin c → Fin n → EReal) (b : Fin c → Fin c → EReal) (g : EReal) (j : Fin c) (k : Fin n) : EReal :=
  g * (∑ i : Fin c, attention z q b i j * q i k) + q j k

/-- The same for every sample of a stack: Q : [m, c, n] the samples, B : [m, c, c] their biases; entry (d, j, k)
    is the attended value of sample d. -/
def attendedStack {m : ℕ} (z : EReal) (Q : (⟨3, ![m, c, n]⟩ : Shape).Idx → EReal) (B : (⟨3, ![m, c, c]⟩ : Shape).Idx → EReal)
    (g : EReal) : (⟨3, ![m, c, n]⟩ : Shape).Idx → EReal :=
  fun y => attended z (fun i k => Q (ix3 (y 0) i k)) (fun i j => B (ix3 (y 0) i j)) g (y 1) (y 2)

theorem attendedStack_apply {m : ℕ} (z : EReal) (Q : (⟨3, ![m, c, n]⟩ : Shape).Idx → EReal)
    (B : (⟨3, ![m, c, c]⟩ : Shape).Idx → EReal) (g : EReal) (d : Fin m) (j : Fin c) (k : Fin n) :
    attendedStack z Q B g (ix3 d j k) = attended z (fun i k => Q (ix3 d i k)) (fun i j => B (ix3 d i j)) g j k := rfl

end Cert.ChannelAttention

end
-- ==== Proof.KernelBlock.lean ====
/- One grid point of the kernel as a function of its three input blocks, entry by entry.

   The body reads the sample's block x0 : [1, 512, 4096], the bias block x1 : [1, 512, 512] and the scale x2 : [1].
   Its values are named here once — the sample as a matrix, the energy matrix (a product of the sample with
   itself over the positions), the turned-round energies, the attention (two row softmaxes), and, for a chunk of
   512 positions, scale * (attention^T * chunk) + chunk — and each is read at an index: the matrix products as
   sums over the contracted coordinate, the row maxima and sums through the column re-laying.  Entry (j, r) of a
   chunk's result is the attended value of channel j at that chunk's position r. -/
import proofs.«168826_j19928648253730_2_alg».proof.Proof.Gen.KernelIdeal.Skeleton
import proofs.«168826_j19928648253730_2_alg».proof.Proof.LibRowSoftmax
import proofs.«168826_j19928648253730_2_alg».proof.Proof.ChannelAttention
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Block

open Idealize.ShloMosaic Idealize.ShloMosaic.ValueIdx Cert.KernelIdeal Cert.KernelIdeal.Gen
open Cert.LibRowSoftmax Cert.ChannelAttention

/-- The value every maximum starts from: the f32 word of -inf. -/
abbrev negInf : EReal := Ideal.ofBits .f32 0xFF800000#32

/-! ## The body's values, named -/

/-- The sample's block as a [512, 4096] matrix. -/
def sample (x0 : Vec Ideal S1x512x4096 .f32) : FVec Ideal S512x4096 .f32 :=
  shapeCast S512x4096 x0 shapeCasts_S1x512x4096_S512x4096

/-- The energies: the sample times its transpose, summed over the positions. -/
def energyM (x0 : Vec Ideal S1x512x4096 .f32) : FVec Ideal S512x512 .f32 :=
  matmul dot_S512x4096_S512x4096_S512x512_1_1_0_0_n_n (some .fp32) (sample x0) (sample x0) (constant S512x512 .f32 0x00000000#32)

/-- Each row's maximum minus the row. -/
def centredM (x0 : Vec Ideal S1x512x4096 .f32) : FVec Ideal S512x512 .f32 :=
  subf (broadcastTo S512x512 (shapeCast S512x1
      (multiReduction .maximumf [1] S512 (energyM x0) 0xFF800000#32 reduces_S512x512_S512 (.inl rfl) rfl)
      shapeCasts_S512_S512x1) broadcasts_S512x1_S512x512) (energyM x0)

/-- The attention: row softmax, plus the bias block, row softmax again. -/
def attnM (x0 : Vec Ideal S1x512x4096 .f32) (x1 : Vec Ideal S1x512x512 .f32) : FVec Ideal S512x512 .f32 :=
  rowSoftmax (addf (rowSoftmax (centredM x0) reduces_S512x512_S512 shapeCasts_S512_S512x1 broadcasts_S512x1_S512x512)
      (shapeCast S512x512 x1 shapeCasts_S1x512x512_S512x512))
    reduces_S512x512_S512 shapeCasts_S512_S512x1 broadcasts_S512x1_S512x512

/-- One chunk of 512 positions: scale * (attention^T * chunk) + chunk, re-laid as a [1, 512, 512] block. -/
def chunkOut (A : FVec Ideal S512x512 .bf16) (g : FVec Ideal S1x1 .f32) (xc : Vec Ideal S1x512x512 .f32) :
    FVec Ideal S1x512x512 .f32 :=
  shapeCast S1x512x512
    (addf (mulf (broadcastTo S512x512 g broadcasts_S1x1_S512x512)
        (matmul dot_S512x512_S512x512_S512x512_0_0_1_1_n_n none A
          (truncf .bf16 (shapeCast S512x512 xc shapeCasts_S1x512x512_S512x512) bitsLt_bf16_f32)
          (constant S512x512 .f32 0x00000000#32)))
      (shapeCast S512x512 xc shapeCasts_S1x512x512_S512x512))
    shapeCasts_S512x512_S1x512x512

/-! ## The printed payloads are these values -/

theorem pay3_eq (x0 : Vec Ideal S1x512x4096 .f32) (x1 : Vec Ideal S1x512x512 .f32) :
    k0_pay3 (F := Ideal) x0 x1 = truncf .bf16 (attnM x0 x1) bitsLt_bf16_f32 := rfl
theorem pay4_eq (x2 : Vec Ideal S1 .f32) : k0_pay4 (F := Ideal) x2 = shapeCast S1x1 x2 shapeCasts_S1_S1x1 := rfl
theorem pay1_eq (A : FVec Ideal S512x512 .bf16) (g : FVec Ideal S1x1 .f32) (xc : Vec Ideal S1x512x512 .f32) :
    k0_pay1 (F := Ideal) A g xc = chunkOut A g xc := rfl
theorem pay2_eq (A : FVec Ideal S512x512 .bf16) (g : FVec Ideal S1x1 .f32) (xc : Vec Ideal S1x512x512 .f32) :
    k0_pay2 (F := Ideal) A g xc = chunkOut A g xc := rfl
theorem pay7_eq (A : FVec Ideal S512x512 .bf16) (g : FVec Ideal S1x1 .f32) (xc : Vec Ideal S1x512x512 .f32) :
    k0_pay7 (F := Ideal) A g xc = chunkOut A g xc := rfl
theorem pay8_eq (A : FVec Ideal S512x512 .bf16) (g : FVec Ideal S1x1 .f32) (xc : Vec Ideal S1x512x512 .f32) :
    k0_pay8 (F := Ideal) A g xc = chunkOut A g xc := rfl
theorem pay11_eq (A : FVec Ideal S512x512 .bf16) (g : FVec Ideal S1x1 .f32) (xc : Vec Ideal S1x512x512 .f32) :
    k0_pay11 (F := Ideal) A g xc = chunkOut A g xc := rfl
theorem pay12_eq (A : FVec Ideal S512x512 .bf16) (g : FVec Ideal S1x1 .f32) (xc : Vec Ideal S1x512x512 .f32) :
    k0_pay12 (F := Ideal) A g xc = chunkOut A g xc := rfl
theorem pay10_eq (A : FVec Ideal S512x512 .bf16) (g : FVec Ideal S1x1 .f32) (xc : Vec Ideal S1x512x512 .f32) :
    k0_pay10 (F := Ideal) A g (k0_pay9 xc) = chunkOut A g xc := rfl
theorem pay6_eq (x0 : Vec Ideal S1x512x4096 .f32) (x1 : Vec Ideal S1x512x512 .f32) (x2 : Vec Ideal S1 .f32)
    (xc : Vec Ideal S1x512x512 .f32) :
    k0_pay6 (F := Ideal) (k0_pay5 x0 x1 x2 xc) = chunkOut (k0_pay3 x0 x1) (k0_pay4 x2) xc := rfl

/-! ## Read at an index -/

/-- The sample matrix at (i, k) is the block at (0, i, k). -/
theorem sample_apply (x0 : Vec Ideal S1x512x4096 .f32) (i : Fin 512) (k : Fin 4096) :
    sample x0 (ix2 i k) = x0 (ix3 (0 : Fin 1) i k) :=
  shapeCast_1ab_ab_apply x0 _ i k

/-- The two matrix products' dimension records. -/
abbrev dotEnergy := dot_S512x4096_S512x4096_S512x512_1_1_0_0_n_n
abbrev dotChunk := dot_S512x512_S512x512_S512x512_0_0_1_1_n_n

/-- The operand indices of the energy product at output (i, j) and position k: (i, k) and (j, k). -/
theorem energy_lhs0 (y : S512x512.Idx) (q : dotEnergy.contr.Idx) : (dotEnergy.lhsIdx y q 0).val = (y 0).val := by
  unfold DotDims.lhsIdx
  rw [dif_neg (show ¬(0 : Fin S512x4096.rank) ∈ dotEnergy.lhsBatch by decide), dif_pos (show (0 : Fin S512x4096.rank) ∈ dotEnergy.lhsNonContracting by decide)]
  rfl
theorem energy_lhs1 (y : S512x512.Idx) (q : dotEnergy.contr.Idx) : (dotEnergy.lhsIdx y q 1).val = (q ⟨0, by decide⟩).val :=
  dotEnergy.lhsIdx_val_of_single rfl y q
theorem energy_rhs0 (y : S512x512.Idx) (q : dotEnergy.contr.Idx) : (dotEnergy.rhsIdx y q 0).val = (y 1).val := by
  unfold DotDims.rhsIdx
  rw [dif_neg (show ¬(0 : Fin S512x4096.rank) ∈ dotEnergy.rhsBatch by decide), dif_pos (show (0 : Fin S512x4096.rank) ∈ dotEnergy.rhsNonContracting by decide)]
  rfl
theorem energy_rhs1 (y : S512x512.Idx) (q : dotEnergy.contr.Idx) : (dotEnergy.rhsIdx y q 1).val = (q ⟨0, by decide⟩).val :=
  dotEnergy.rhsIdx_val_of_single rfl y q

/-- The operand indices of a chunk's product at output (j, r) and channel k: (k, j) and (k, r). -/
theorem chunk_lhs0 (y : S512x512.Idx) (q : dotChunk.contr.Idx) : (dotChunk.lhsIdx y q 0).val = (q ⟨0, by decide⟩).val :=
  dotChunk.lhsIdx_val_of_single rfl y q
theorem chunk_lhs1 (y : S512x512.Idx) (q : dotChunk.contr.Idx) : (dotChunk.lhsIdx y q 1).val = (y 0).val := by
  unfold DotDims.lhsIdx
  rw [dif_neg (show ¬(1 : Fin S512x512.rank) ∈ dotChunk.lhsBatch by decide), dif_pos (show (1 : Fin S512x512.rank) ∈ dotChunk.lhsNonContracting by decide)]
  rfl
theorem chunk_rhs0 (y : S512x512.Idx) (q : dotChunk.contr.Idx) : (dotChunk.rhsIdx y q 0).val = (q ⟨0, by decide⟩).val :=
  dotChunk.rhsIdx_val_of_single rfl y q
theorem chunk_rhs1 (y : S512x512.Idx) (q : dotChunk.contr.Idx) : (dotChunk.rhsIdx y q 1).val = (y 1).val := by
  unfold DotDims.rhsIdx
  rw [dif_neg (show ¬(1 : Fin S512x512.rank) ∈ dotChunk.rhsBatch by decide), dif_pos (show (1 : Fin S512x512.rank) ∈ dotChunk.rhsNonContracting by decide)]
  rfl

/-- The energy of channels i and j: the sum over the positions of the products. -/
theorem energyM_apply (x0 : Vec Ideal S1x512x4096 .f32) (i j : Fin 512) :
    energyM x0 (ix2 i j) = ∑ k : Fin 4096, x0 (ix3 (0 : Fin 1) i k) * x0 (ix3 (0 : Fin 1) j k) := by
  unfold energyM
  simp only [matmul]
  rw [Ideal.matmul_constant_zero_apply, ← Equiv.sum_comp (contrEquiv1 dotEnergy 4096 rfl rfl).symm]
  refine Finset.sum_congr rfl fun k _ => ?_
  have hk := contrEquiv1_symm_val dotEnergy 4096 rfl rfl k
  have el : dotEnergy.lhsIdx (ix2 i j) ((contrEquiv1 dotEnergy 4096 rfl rfl).symm k) = ix2 i k := funext fun a => Fin.ext (by
    match a with
    | ⟨0, _⟩ => exact energy_lhs0 _ _
    | ⟨1, _⟩ => exact (energy_lhs1 _ _).trans hk)
  have er : dotEnergy.rhsIdx (ix2 i j) ((contrEquiv1 dotEnergy 4096 rfl rfl).symm k) = ix2 j k := funext fun a => Fin.ext (by
    match a with
    | ⟨0, _⟩ => exact energy_rhs0 _ _
    | ⟨1, _⟩ => exact (energy_rhs1 _ _).trans hk)
  rw [el, er, sample_apply, sample_apply]

/-- The turned-round energy at (i, j): the maximum of row i minus the entry. -/
theorem centredM_apply (x0 : Vec Ideal S1x512x4096 .f32) (i j : Fin 512) :
    centredM x0 (ix2 i j) = maxFrom negInf (fun k => energyM x0 (ix2 i k)) - energyM x0 (ix2 i j) :=
  congrArg (· - energyM x0 (ix2 i j))
    ((Cert.LibColumn.broadcastTo_shapeCast_column_apply _ shapeCasts_S512_S512x1 broadcasts_S512x1_S512x512 i j).trans
      (multiReduction_max_row (energyM x0) _ reduces_S512x512_S512 _ _ i))

/-- The attention at (i, j): the second softmax of row i, whose entries are the first softmax plus the bias. -/
theorem attnM_apply (x0 : Vec Ideal S1x512x4096 .f32) (x1 : Vec Ideal S1x512x512 .f32) (i j : Fin 512) :
    attnM x0 x1 (ix2 i j)
      = attention negInf (fun i k => x0 (ix3 (0 : Fin 1) i k)) (fun i j => x1 (ix3 (0 : Fin 1) i j)) i j := by
  unfold attnM
  refine (rowSoftmax_apply _ _ _ _ i j).trans ?_
  unfold attention
  refine congrArg (fun r => softmaxFrom negInf r j) (funext fun j' => ?_)
  refine (addf_apply _ _ _).trans ?_
  refine congrArg₂ (· + ·) ((rowSoftmax_apply _ _ _ _ i j').trans ?_) (shapeCast_1ab_ab_apply x1 _ i j')
  refine congrArg (fun r => softmaxFrom negInf r j') (funext fun j'' => ?_)
  rw [centredM_apply]
  unfold centred energy
  simp only [energyM_apply]

/-- A [1, 1] scalar spread over a matrix reads the scalar everywhere. -/
theorem spread_apply {a b : ℕ} {α : Type} (g : (⟨2, ![1, 1]⟩ : Shape).Idx → α) (h : (⟨2, ![1, 1]⟩ : Shape).Broadcasts ⟨2, ![a, b]⟩)
    (p : Fin a) (c : Fin b) : broadcastTo ⟨2, ![a, b]⟩ g h (ix2 p c) = g (ix2 (0 : Fin 1) (0 : Fin 1)) :=
  broadcastTo_apply g h (ix2 p c) (ix2 (0 : Fin 1) (0 : Fin 1)) fun ax => by
    match ax with
    | ⟨0, _⟩ => rfl
    | ⟨1, _⟩ => rfl

/-- Entry (j, r) of a chunk's result: the scale times the sum over the channels of the attention's column j
    against the chunk's column r, plus the chunk's own entry. -/
theorem chunkOut_apply (A : FVec Ideal S512x512 .bf16) (g : FVec Ideal S1x1 .f32) (xc : Vec Ideal S1x512x512 .f32)
    (u : Fin 1) (j r : Fin 512) :
    chunkOut A g xc (ix3 u j r)
      = g (ix2 (0 : Fin 1) (0 : Fin 1)) * (∑ i : Fin 512, A (ix2 i j) * xc (ix3 (0 : Fin 1) i r)) + xc (ix3 (0 : Fin 1) j r) := by
  unfold chunkOut
  refine (shapeCast_ab_1ab_apply _ _ u j r).trans ?_
  refine (addf_apply _ _ _).trans ?_
  refine congrArg₂ (· + ·) ((mulf_apply _ _ _).trans (congrArg₂ (· * ·) (spread_apply g _ j r) ?_)) (shapeCast_1ab_ab_apply xc _ j r)
  simp only [matmul]
  rw [Ideal.matmul_constant_zero_apply, ← Equiv.sum_comp (contrEquiv1 dotChunk 512 rfl rfl).symm]
  refine Finset.sum_congr rfl fun k _ => ?_
  have hk := contrEquiv1_symm_val dotChunk 512 rfl rfl k
  have el : dotChunk.lhsIdx (ix2 j r) ((contrEquiv1 dotChunk 512 rfl rfl).symm k) = ix2 k j := funext fun a => Fin.ext (by
    match a with
    | ⟨0, _⟩ => exact (chunk_lhs0 _ _).trans hk
    | ⟨1, _⟩ => exact chunk_lhs1 _ _)
  have er : dotChunk.rhsIdx (ix2 j r) ((contrEquiv1 dotChunk 512 rfl rfl).symm k) = ix2 k r := funext fun a => Fin.ext (by
    match a with
    | ⟨0, _⟩ => exact (chunk_rhs0 _ _).trans hk
    | ⟨1, _⟩ => exact chunk_rhs1 _ _)
  rw [el, er]
  exact congrArg (A (ix2 k j) * ·) (shapeCast_1ab_ab_apply xc _ k r)

end Cert.KernelIdeal.Block

end
-- ==== Proof.KernelValue.lean ====
/- What the kernel's program leaves in its result: the re-laid stack of attended values.

   At grid point t the body receives sample t of the re-laid input ([1, 512, 4096]), the bias block t and the
   scale, and fills the output block by eight stores of 512 positions each; every store's payload is the chunk of
   ONE function of the block index — the attended value of the sample — so the block read back is that function.
   The eight points' blocks are the eight samples of the result array, which therefore ends as the stack of
   attended values of the input re-laid as [8, 512, 4096]; the line after the region re-lays it as
   [8, 512, 64, 64]. -/
import proofs.«168826_j19928648253730_2_alg».proof.Proof.Gen.KernelIdeal.Frame
import proofs.«168826_j19928648253730_2_alg».proof.Proof.KernelBlock
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Block Cert.LibRowSoftmax Cert.ChannelAttention

/-! ## One grid point -/

/-- What a grid point leaves in its output block: entry (0, j, k) is the attended value of the point's sample. -/
def blockOut (x0 : Vec Ideal S1x512x4096 .f32) (x1 : Vec Ideal S1x512x512 .f32) (x2 : Vec Ideal S1 .f32) :
    Vec Ideal S1x512x4096 .f32 :=
  fun y => attended (c := 512) (n := 4096) negInf (fun i k => x0 (ix3 (0 : Fin 1) i k)) (fun i j => x1 (ix3 (0 : Fin 1) i j))
    (x2 (ix1 (0 : Fin 1))) (y 1) (y 2)

theorem blockOut_apply (x0 : Vec Ideal S1x512x4096 .f32) (x1 : Vec Ideal S1x512x512 .f32) (x2 : Vec Ideal S1 .f32)
    (u : Fin 1) (j : Fin 512) (k : Fin 4096) :
    blockOut x0 x1 x2 (ix3 u j k)
      = attended negInf (fun i k => x0 (ix3 (0 : Fin 1) i k)) (fun i j => x1 (ix3 (0 : Fin 1) i j)) (x2 (ix1 (0 : Fin 1))) j k := rfl

/-- The store of the 512 positions from `o` on writes that chunk of `blockOut`. -/
theorem piece_eq (x0 : Vec Ideal S1x512x4096 .f32) (x1 : Vec Ideal S1x512x512 .f32) (x2 : Vec Ideal S1 .f32) (o : ℕ)
    (inb : ∀ a, (![0, 0, o] : Fin 3 → ℕ) a + (![1, 512, 512] : Fin 3 → ℕ) a ≤ S1x512x4096.size a)
    (x : (Rect.unit (s := S1x512x4096) ![0, 0, o] ![1, 512, 512] inb).shape.Idx) :
    chunkOut (k0_pay3 x0 x1) (k0_pay4 x2) (View.ld x0 (Rect.unit (s := S1x512x4096) ![0, 0, o] ![1, 512, 512] inb)) x
      = blockOut x0 x1 x2 ((Rect.unit (s := S1x512x4096) ![0, 0, o] ![1, 512, 512] inb).emb x) := by
  obtain ⟨u, j, r, rfl⟩ : ∃ (u : Fin 1) (j r : Fin 512), x = ix3 u j r := ⟨x 0, x 1, x 2, eq_ix3 x⟩
  have h2 : o + 512 ≤ 4096 := inb 2
  have hn : o + r.val < 4096 := by have := r.isLt; omega
  have hidx : ∀ (u' : Fin 1) (i : Fin 512),
      (Rect.unit (s := S1x512x4096) ![0, 0, o] ![1, 512, 512] inb).toLoadRect.idx (ix3 u' i r) = ix3 u' i (⟨o + r.val, hn⟩ : Fin 4096) :=
    fun u' i => funext fun a => Fin.ext (by
      match a with
      | ⟨0, _⟩ => show 0 + 1 * u'.val = u'.val; omega
      | ⟨1, _⟩ => show 0 + 1 * i.val = i.val; omega
      | ⟨2, _⟩ => show o + 1 * r.val = o + r.val; omega)
  rw [chunkOut_apply]
  show _ = blockOut x0 x1 x2 ((Rect.unit (s := S1x512x4096) ![0, 0, o] ![1, 512, 512] inb).toLoadRect.idx (ix3 u j r))
  rw [hidx u j, blockOut_apply]
  unfold attended
  show k0_pay4 x2 (ix2 (0 : Fin 1) (0 : Fin 1)) * (∑ i : Fin 512, k0_pay3 x0 x1 (ix2 i j)
      * x0 ((Rect.unit (s := S1x512x4096) ![0, 0, o] ![1, 512, 512] inb).toLoadRect.idx (ix3 (0 : Fin 1) i r)))
    + x0 ((Rect.unit (s := S1x512x4096) ![0, 0, o] ![1, 512, 512] inb).toLoadRect.idx (ix3 (0 : Fin 1) j r)) = _
  simp only [hidx]
  rw [pay4_eq, Cert.LibColumn.shapeCast_a_a1_apply]
  refine congrArg (fun s => x2 (ix1 (0 : Fin 1)) * s + x0 (ix3 (0 : Fin 1) j ⟨o + r.val, hn⟩)) (Finset.sum_congr rfl fun i _ => ?_)
  rw [pay3_eq, truncf_apply, attnM_apply]

theorem hz3 : (![0, 0, 0] : Fin 3 → Nat) = fun _ => 0 := funext fun a => by fin_cases a <;> rfl
theorem hz1 : (![0] : Fin 1 → Nat) = fun _ => 0 := funext fun a => by fin_cases a <;> rfl

/-- The block a grid point leaves, read back from its eight stores, is `blockOut` of the point's input blocks. -/
theorem out_eq (c : Dev nD) (i : grid0.Coords) (a1 : Memref sig .tc .vmem S1x512x4096 .f32) (h1 : a1.IsWhole)
    (a2 : Memref sig .tc .vmem S1x512x512 .f32) (h2 : a2.IsWhole) (a3 : Memref sig .tc .vmem S1 .f32) (h3 : a3.IsWhole)
    (a4 : Memref sig .tc .vmem S1x512x4096 .f32) (h4 : a4.IsWhole)
    (x0 : Vec Ideal S1x512x4096 .f32) (x1 : Vec Ideal S1x512x512 .f32) (x2 : Vec Ideal S1 .f32) :
    out0_A_3 (F := Ideal) c i a1 h1 a2 h2 a3 h3 a4 h4 x0 x1 x2 = blockOut x0 x1 x2 := by
  unfold out0_A_3
  rw [View.read_writes_eq_canon _ _ _ (cover0_A_3 c i a1 h1 a2 h2 a3 h3 a4 h4 x0 x1 x2)]
  funext y
  refine View.canon_apply_of_pieces (blockOut x0 x1 x2) _ ?_ y (cover0_A_3 c i a1 h1 a2 h2 a3 h3 a4 h4 x0 x1 x2 y)
  unfold kernelRun0_A
  dsimp only
  sl_unfold_words
  simp only [View.readAt_eq_ld, h1.read_unread, h2.read_unread, h3.read_unread,
    View.ld_unit_zero (S := S1x512x4096) hz3, View.ld_unit_zero (S := S1x512x512) hz3, View.ld_unit_zero (S := S1) hz1,
    pay1_eq, pay2_eq, pay7_eq, pay8_eq, pay11_eq, pay12_eq, pay10_eq, pay6_eq]
  intro p hp
  simp only [List.mem_cons, List.mem_nil_iff, or_false] at hp
  rcases hp with rfl | rfl | rfl | rfl | rfl | rfl | rfl | rfl <;> exact piece_eq x0 x1 x2 _ _

/-! ## The region's result array -/

section Region

variable (m : (ℓ : Loc nD τ sig) → Buf (Elt Ideal) ℓ) (ρ : Dev nD → PrngReg)

/-- The printed index maps, decided over the eight grid points: at point t the sample, bias and output windows are
    at block (t, 0, 0), the scale's window at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 1) = 0
    ∧ win0_3.index t (0 : Fin 3) = t.val ∧ win0_3.index t (1 : Fin 3) = 0 ∧ win0_3.index t (2 : Fin 3) = 0 :=
  (by decide +kernel : ∀ t : Fin grid0.N, _)

/-- The stack of attended values of the arrays as the region finds them. -/
def stack (c : Dev nD) : Buf (Elt Ideal) ((c : Thread nD τ).loc main_v1) :=
  attendedStack (m := 8) (c := 512) (n := 4096) negInf (V m c main_v0) (V m c main_arg1) (V m c main_arg2 (ix1 (0 : Fin 1)))

/-- A block function of blocks that are sample d of the arrays is the stack at sample d. -/
theorem blockOut_stack (Q : S8x512x4096.Idx → EReal) (B : S8x512x512.Idx → EReal) (g : EReal)
    (x0 : Vec Ideal S1x512x4096 .f32) (x1 : Vec Ideal S1x512x512 .f32) (x2 : Vec Ideal S1 .f32) (d : Fin 8)
    (hx0 : ∀ (i : Fin 512) (k : Fin 4096), x0 (ix3 (0 : Fin 1) i k) = Q (ix3 d i k))
    (hx1 : ∀ (i j : Fin 512), x1 (ix3 (0 : Fin 1) i j) = B (ix3 d i j))
    (hx2 : x2 (ix1 (0 : Fin 1)) = g)
    (y : S1x512x4096.Idx) (y' : S8x512x4096.Idx) (h0 : (y' 0).val = d.val) (h1 : (y' 1).val = (y 1).val)
    (h2 : (y' 2).val = (y 2).val) :
    blockOut x0 x1 x2 y = attendedStack negInf Q B g y' := by
  obtain ⟨u, j, k, rfl⟩ : ∃ (u : Fin 1) (j : Fin 512) (k : Fin 4096), y = ix3 u j k := ⟨y 0, y 1, y 2, eq_ix3 y⟩
  obtain rfl : y' = ix3 d j k := funext fun a => Fin.ext (by
    match a with
    | ⟨0, _⟩ => exact h0
    | ⟨1, _⟩ => exact h1
    | ⟨2, _⟩ => exact h2)
  rw [blockOut_apply, attendedStack_apply]
  have e0 : (fun (i : Fin 512) (k : Fin 4096) => x0 (ix3 (0 : Fin 1) i k)) = fun i k => Q (ix3 d i k) :=
    funext fun i => funext fun k => hx0 i k
  have e1 : (fun (i j : Fin 512) => x1 (ix3 (0 : Fin 1) i j)) = fun i j => B (ix3 d i j) :=
    funext fun i => funext fun j => hx1 i j
  rw [e0, e1, hx2]

/-- The sample window's block at point t is sample t of the re-laid input. -/
theorem iblk0_at (c : Dev nD) (t : Fin cfg0.N) (ht : t.val < 8) (i : Fin 512) (k : Fin 4096) :
    (iblk m c 0 t : Vec Ideal S1x512x4096 .f32) (ix3 (0 : Fin 1) i k) = V m c main_v0 (ix3 (⟨t.val, ht⟩ : Fin 8) i k) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 1 + 1 * 0 = t.val; omega
  | ⟨1, _⟩ => show win0_0.index t (1 : Fin 3) * 512 + 1 * i.val = i.val; omega
  | ⟨2, _⟩ => show win0_0.index t (2 : Fin 3) * 4096 + 1 * k.val = k.val; omega

/-- The bias window's block at point t is bias t. -/
theorem iblk1_at (c : Dev nD) (t : Fin cfg0.N) (ht : t.val < 8) (i j : Fin 512) :
    (iblk m c 1 t : Vec Ideal S1x512x512 .f32) (ix3 (0 : Fin 1) i j) = V m c main_arg1 (ix3 (⟨t.val, ht⟩ : Fin 8) i j) := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = t.val; omega
  | ⟨1, _⟩ => show win0_1.index t (1 : Fin 3) * 512 + 1 * i.val = i.val; omega
  | ⟨2, _⟩ => show win0_1.index t (2 : Fin 3) * 512 + 1 * j.val = j.val; omega

/-- The scale window's block is the scale. -/
theorem iblk2_at (c : Dev nD) (t : Fin cfg0.N) :
    (iblk m c 2 t : Vec Ideal S1 .f32) (ix1 (0 : Fin 1)) = V m c main_arg2 (ix1 (0 : Fin 1)) := by
  obtain ⟨-, -, -, -, -, -, e0, -⟩ := idx_facts t
  unfold iblk
  rw [View.read_apply]
  show V m c main_arg2 _ = V m c main_arg2 _
  congr 1
  funext a
  apply Fin.ext
  match a with
  | ⟨0, _⟩ => show win0_2.index t (0 : Fin 1) * 1 + 1 * 0 = 0; omega

/-- What point t writes back is block t of the stack. -/
theorem flushed_eq (c : Dev nD) (t : Fin cfg0.N) :
    (dats m 0 c).flushed 3 t = ((cfg0.win 3).blk t).view.read (Elt Ideal) (stack m c) := by
  show (cfg0.win 3).cut (grid0.coords t) ((dats m 0 c).after 3 t) = _
  rw [after0_3]
  unfold outsAt0
  rw [out_eq]
  have ht : t.val < 8 := lt_of_lt_of_eq t.isLt N_0
  obtain ⟨-, -, -, -, -, -, -, e7, e8, e9⟩ := idx_facts t
  funext y
  show blockOut (iblk m c 0 t) (iblk m c 1 t) (iblk m c 2 t) y = stack m c (((cfg0.win 3).blk t).view.emb y)
  exact blockOut_stack (V m c main_v0) (V m c main_arg1) (V m c main_arg2 (ix1 (0 : Fin 1))) _ _ _ ⟨t.val, ht⟩
    (iblk0_at m c t ht) (iblk1_at m c t ht) (iblk2_at m c t) y _
    (by show win0_3.index t (0 : Fin 3) * 1 + 1 * (y 0).val = t.val; have : (y 0).val < 1 := (y 0).isLt; omega)
    (by show win0_3.index t (1 : Fin 3) * 512 + 1 * (y 1).val = (y 1).val; omega)
    (by show win0_3.index t (2 : Fin 3) * 4096 + 1 * (y 2).val = (y 2).val; omega)

/-- An index of the result array is in point t's block iff each coordinate is in the block's range. -/
theorem mem_blk (t : Fin cfg0.N) (i : S8x512x4096.Idx) :
    i ∈ ((cfg0.win 3).blk t).view.set ↔ ∀ a : Fin 3, win0_3.index t a * S1x512x4096.size a ≤ (i a).val
      ∧ (i a).val < win0_3.index t a * S1x512x4096.size a + S1x512x4096.size a := by
  show i ∈ ((View.whole main_v1).slice (win0_3.rect t)).set ↔ _
  rw [View.set_slice_whole, Rect.mem_set_unit]
  exact Iff.rfl

/-- The eight blocks are the eight samples: the result array ends as the stack. -/
theorem final (c : Dev nD) : (dats m 0 c).arrAt 3 cfg0.N = stack m c :=
  (dats m 0 c).arrAt_eq_of_cover 3 (stack m c) (fun t _ => flushed_eq m c t) fun i => by
    have hi0 : (i 0).val < 8 := (i 0).isLt
    have hi1 : (i 1).val < 512 := (i 1).isLt
    have hi2 : (i 2).val < 4096 := (i 2).isLt
    have hN : (i 0).val < cfg0.N := lt_of_lt_of_eq hi0 N_0.symm
    obtain ⟨-, -, -, -, -, -, -, e7, e8, e9⟩ := idx_facts (⟨(i 0).val, hN⟩ : Fin cfg0.N)
    have e7' : win0_3.index (⟨(i 0).val, hN⟩ : Fin cfg0.N) (0 : Fin 3) = (i 0).val := e7
    refine ⟨⟨(i 0).val, hN⟩, flush0_3 _, ?_⟩
    rw [mem_blk]
    intro a
    match a with
    | ⟨0, _⟩ =>
      show win0_3.index ⟨(i 0).val, hN⟩ (0 : Fin 3) * 1 ≤ (i 0).val ∧ (i 0).val < win0_3.index ⟨(i 0).val, hN⟩ (0 : Fin 3) * 1 + 1
      omega
    | ⟨1, _⟩ =>
      show win0_3.index ⟨(i 0).val, hN⟩ (1 : Fin 3) * 512 ≤ (i 1).val ∧ (i 1).val < win0_3.index ⟨(i 0).val, hN⟩ (1 : Fin 3) * 512 + 512
      omega
    | ⟨2, _⟩ =>
      show win0_3.index ⟨(i 0).val, hN⟩ (2 : Fin 3) * 4096 ≤ (i 2).val ∧ (i 2).val < win0_3.index ⟨(i 0).val, hN⟩ (2 : Fin 3) * 4096 + 4096
      omega

/-- The line before the region re-lays the input as [8, 512, 4096]. -/
theorem V_main_v0 (c : Dev nD) :
    (V m c main_v0 : S8x512x4096.Idx → EReal)
      = shapeCast S8x512x4096 (m ((c : Thread nD τ).loc main_arg0)) shapeCasts_S8x512x64x64_S8x512x4096 := by
  show StableHlo.after hostOps0 (fun b => m (c, b)) (Proc.devRef .tc main_v0) = _
  after_results
  rfl

/-- The line after the region re-lays the result array as [8, 512, 64, 64]. -/
theorem tail_eq (c : Dev nD) :
    Pipeline.afterTail₀ cfgs (dats m) 0 (V0 m) [hostOps1] c main_v2
      = shapeCast S8x512x64x64 (stack m c) shapeCasts_S8x512x4096_S8x512x64x64 := by
  unfold Pipeline.afterTail₀
  show StableHlo.after hostOps1 _ (Proc.devRef .tc main_v2) = _
  after_results
  exact congrArg (fun Y => shapeCast S8x512x64x64 Y shapeCasts_S8x512x4096_S8x512x64x64)
    ((Pipeline.withArrays_arr spec0 launch0.win.arr_inj c _ _ 3).trans (final m c))

/-- The program's result as a function of its arguments: the input re-laid as [8, 512, 4096], the stack of
    attended values, re-laid back. -/
def result (c : Dev nD) : Buf (Elt Ideal) ((c : Thread nD τ).loc main_v2) :=
  shapeCast S8x512x64x64
    (attendedStack (m := 8) (c := 512) (n := 4096) negInf
      (shapeCast S8x512x4096 (m ((c : Thread nD τ).loc main_arg0)) shapeCasts_S8x512x64x64_S8x512x4096)
      (m ((c : Thread nD τ).loc main_arg1)) (m ((c : Thread nD τ).loc main_arg2) (ix1 (0 : Fin 1))))
    shapeCasts_S8x512x4096_S8x512x64x64

/-- The arrays the region finds are the re-laid input and the two other arguments. -/
theorem stack_eq (c : Dev nD) :
    stack m c = attendedStack (m := 8) (c := 512) (n := 4096) negInf
      (shapeCast S8x512x4096 (m ((c : Thread nD τ).loc main_arg0)) shapeCasts_S8x512x64x64_S8x512x4096)
      (m ((c : Thread nD τ).loc main_arg1)) (m ((c : Thread nD τ).loc main_arg2) (ix1 (0 : Fin 1))) := by
  unfold stack
  rw [V_main_v0, V_main_arg1, V_main_arg2]

/-- Every weakly fair execution of the program ends with its result at `result` and its arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans
        ((tail_eq m c).trans (by unfold result; rw [stack_eq])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Region

end Cert.KernelIdeal.KValue

end
-- ==== Proof.RefStages.lean ====
/- The reference program read one operation at a time: it computes the attention between the channels.

   With Q the input re-laid as [8, 512, 4096] (stage 0), stage 1 is the energies of every sample, stage 5 the
   turned-round energies, stages 6-16 the first row softmax (the host takes the larger of -inf and the row
   maximum, which is the row maximum), stage 17 adds the bias, stages 18-28 are the second softmax, stage 29
   weighs the channels by the attention's columns, and the last stages scale, add the input and re-lay the
   result as [8, 512, 64, 64].  So the result is the re-laid stack of attended values. -/
import proofs.«168826_j19928648253730_2_alg».proof.Proof.Gen.ReferenceIdeal.Read
import proofs.«168826_j19928648253730_2_alg».proof.Proof.LibRowSoftmax
import proofs.«168826_j19928648253730_2_alg».proof.Proof.ChannelAttention

noncomputable section

namespace Cert.ReferenceIdeal.RefValue

open Cert.ReferenceIdeal Cert.ReferenceIdeal.Gen Cert.ReferenceIdeal.Read Idealize.ShloMosaic Idealize.ShloMosaic.ValueIdx
open Cert.LibRowSoftmax Cert.ChannelAttention

/-- The value every maximum starts from: the f32 word of -inf. -/
abbrev negInf : EReal := Ideal.ofBits .f32 0xFF800000#32

variable (X : (⟨S8x512x64x64, .f32⟩ : BufTy).Contents (Elt Ideal)) (A : (⟨S8x512x512, .f32⟩ : BufTy).Contents (Elt Ideal))
  (Γ : (⟨S1, .f32⟩ : BufTy).Contents (Elt Ideal))

/-- Sample d of the re-laid input, as a matrix of channels by positions. -/
abbrev smp (d : Fin 8) : Fin 512 → Fin 4096 → EReal := fun i k => val_main_v0 (F := Ideal) X (ix3 d i k)

/-- Stage 1: the energies of sample d. -/
theorem v1_at (d : Fin 8) (i j : Fin 512) : val_main_v1 (F := Ideal) X (ix3 d i j) = energy (smp X d) i j := by
  rw [val_main_v1_apply]
  unfold energy
  exact Finset.sum_congr rfl fun k _ => congrArg₂ (· * ·)
    (congrArg _ (funext fun a => by match a with | ⟨0, _⟩ => rfl | ⟨1, _⟩ => rfl | ⟨2, _⟩ => rfl))
    (congrArg _ (funext fun a => by match a with | ⟨0, _⟩ => rfl | ⟨1, _⟩ => rfl | ⟨2, _⟩ => rfl))

/-- Stage 2: the maximum of each row of energies. -/
theorem v2_at (d : Fin 8) (i : Fin 512) :
    val_main_v2 (F := Ideal) X (ix2 d i) = maxFrom negInf (energy (smp X d) i) := by
  unfold val_main_v2
  refine (hostReduce_max_row3 _ _ reducesTo_S8x512x512_S8x512_d2 (by decide) h_S_ d i).trans ?_
  exact congrArg (maxFrom negInf) (funext fun k => v1_at X d i k)

/-- Stage 5: the turned-round energies. -/
theorem v5_at (d : Fin 8) (i j : Fin 512) : val_main_v5 (F := Ideal) X (ix3 d i j) = centred negInf (smp X d) i j := by
  rw [val_main_v5_apply, val_main_v4_apply, val_main_v3_apply,
    show idx_main_v3 (idx_main_v4 (ix3 d i j)) = ix2 d i from funext fun a => by match a with | ⟨0, _⟩ => rfl | ⟨1, _⟩ => rfl,
    v2_at, v1_at, Ideal.subf_def]
  rfl

/-! ## The first softmax (stages 6 to 16, over stage 5) -/

/-- The maximum of row (d, i) of stage 5 as the host's reduction computes it. -/
theorem v6_at (d : Fin 8) (i : Fin 512) :
    val_main_v6 (F := Ideal) X (ix2 d i) = maxFrom negInf (fun k => val_main_v5 (F := Ideal) X (ix3 d i k)) := by
  unfold val_main_v6
  exact hostReduce_max_row3 _ _ reducesTo_S8x512x512_S8x512_d2 (by decide) h_S_ d i

/-- The larger of -inf and that maximum is the maximum. -/
theorem v8_at (d : Fin 8) (i : Fin 512) :
    val_main_v8 (F := Ideal) X (ix2 d i) = maxFrom negInf (fun k => val_main_v5 (F := Ideal) X (ix3 d i k)) := by
  rw [val_main_v8_apply, val_main_v7_apply, val_main_cst_1_apply, v6_at, Ideal.maximumf_def]
  exact max_maxFrom negInf _

/-- The row centred at its maximum, exponentiated. -/
theorem v12_at (d : Fin 8) (i j : Fin 512) :
    val_main_v12 (F := Ideal) X (ix3 d i j)
      = Ideal.exp (val_main_v5 (F := Ideal) X (ix3 d i j) - maxFrom negInf (fun k => val_main_v5 (F := Ideal) X (ix3 d i k))) := by
  rw [val_main_v12_apply, val_main_v11_apply, val_main_v10_apply, val_main_v9_apply,
    show idx_main_v9 (idx_main_v10 (ix3 d i j)) = ix2 d i from funext fun a => by match a with | ⟨0, _⟩ => rfl | ⟨1, _⟩ => rfl,
    v8_at, Ideal.hostUnary_exp_def, Ideal.subf_def]

/-- The row's sum of exponentials (the host adds it to zero). -/
theorem v13_at (d : Fin 8) (i : Fin 512) :
    val_main_v13 (F := Ideal) X (ix2 d i)
      = ∑ j : Fin 512, Ideal.exp (val_main_v5 (F := Ideal) X (ix3 d i j) - maxFrom negInf (fun k => val_main_v5 (F := Ideal) X (ix3 d i k))) := by
  rw [val_main_v13_apply, val_main_cst_2_apply]
  show Ideal.ofBits .f32 0x00000000#32 + _ = _
  rw [Ideal.ofBits_zero_f32, zero_add]
  refine Finset.sum_congr rfl fun k _ => ?_
  rw [show idx_main_v13 (ix2 d i) k = ix3 d i k from funext fun a => by match a with | ⟨0, _⟩ => rfl | ⟨1, _⟩ => rfl | ⟨2, _⟩ => rfl,
    v12_at]

/-- The quotient: the softmax of the row. -/
theorem v16_at (d : Fin 8) (i j : Fin 512) :
    val_main_v16 (F := Ideal) X (ix3 d i j) = softmaxFrom negInf (fun k => val_main_v5 (F := Ideal) X (ix3 d i k)) j := by
  rw [val_main_v16_apply, val_main_v15_apply, val_main_v14_apply,
    show idx_main_v14 (idx_main_v15 (ix3 d i j)) = ix2 d i from funext fun a => by match a with | ⟨0, _⟩ => rfl | ⟨1, _⟩ => rfl,
    v13_at, v12_at, Ideal.hostDivf_def]
  rfl

/-- Stage 17: the first softmax plus the bias. -/
theorem v17_at (d : Fin 8) (i j : Fin 512) :
    val_main_v17 (F := Ideal) X A (ix3 d i j) = softmaxFrom negInf (centred negInf (smp X d) i) j + A (ix3 d i j) := by
  rw [val_main_v17_apply, v16_at, Ideal.addf_def]
  exact congrArg (fun r => softmaxFrom negInf r j + A (ix3 d i j)) (funext fun k => v5_at X d i k)

/-! ## The second softmax (stages 18 to 28, over stage 17) -/

/-- The maximum of row (d, i) of stage 17 as the host's reduction computes it. -/
theorem v18_at (d : Fin 8) (i : Fin 512) :
    val_main_v18 (F := Ideal) X A (ix2 d i) = maxFrom negInf (fun k => val_main_v17 (F := Ideal) X A (ix3 d i k)) := by
  unfold val_main_v18
  exact hostReduce_max_row3 _ _ reducesTo_S8x512x512_S8x512_d2 (by decide) h_S_ d i

/-- The larger of -inf and that maximum is the maximum. -/
theorem v20_at (d : Fin 8) (i : Fin 512) :
    val_main_v20 (F := Ideal) X A (ix2 d i) = maxFrom negInf (fun k => val_main_v17 (F := Ideal) X A (ix3 d i k)) := by
  rw [val_main_v20_apply, val_main_v19_apply, val_main_cst_4_apply, v18_at, Ideal.maximumf_def]
  exact max_maxFrom negInf _

/-- The row centred at its maximum, exponentiated. -/
theorem v24_at (d : Fin 8) (i j : Fin 512) :
    val_main_v24 (F := Ideal) X A (ix3 d i j)
      = Ideal.exp (val_main_v17 (F := Ideal) X A (ix3 d i j) - maxFrom negInf (fun k => val_main_v17 (F := Ideal) X A (ix3 d i k))) := by
  rw [val_main_v24_apply, val_main_v23_apply, val_main_v22_apply, val_main_v21_apply,
    show idx_main_v21 (idx_main_v22 (ix3 d i j)) = ix2 d i from funext fun a => by match a with | ⟨0, _⟩ => rfl | ⟨1, _⟩ => rfl,
    v20_at, Ideal.hostUnary_exp_def, Ideal.subf_def]

/-- The row's sum of exponentials (the host adds it to zero). -/
theorem v25_at (d : Fin 8) (i : Fin 512) :
    val_main_v25 (F := Ideal) X A (ix2 d i)
      = ∑ j : Fin 512, Ideal.exp (val_main_v17 (F := Ideal) X A (ix3 d i j) - maxFrom negInf (fun k => val_main_v17 (F := Ideal) X A (ix3 d i k))) := by
  rw [val_main_v25_apply, val_main_cst_5_apply]
  show Ideal.ofBits .f32 0x00000000#32 + _ = _
  rw [Ideal.ofBits_zero_f32, zero_add]
  refine Finset.sum_congr rfl fun k _ => ?_
  rw [show idx_main_v25 (ix2 d i) k = ix3 d i k from funext fun a => by match a with | ⟨0, _⟩ => rfl | ⟨1, _⟩ => rfl | ⟨2, _⟩ => rfl,
    v24_at]

/-- The quotient: the softmax of the row. -/
theorem v28_at (d : Fin 8) (i j : Fin 512) :
    val_main_v28 (F := Ideal) X A (ix3 d i j) = softmaxFrom negInf (fun k => val_main_v17 (F := Ideal) X A (ix3 d i k)) j := by
  rw [val_main_v28_apply, val_main_v27_apply, val_main_v26_apply,
    show idx_main_v26 (idx_main_v27 (ix3 d i j)) = ix2 d i from funext fun a => by match a with | ⟨0, _⟩ => rfl | ⟨1, _⟩ => rfl,
    v25_at, v24_at, Ideal.hostDivf_def]
  rfl

/-- Stage 28 is the attention of sample d. -/
theorem attention_at (d : Fin 8) (i j : Fin 512) :
    val_main_v28 (F := Ideal) X A (ix3 d i j) = attention negInf (smp X d) (fun i j => A (ix3 d i j)) i j := by
  rw [v28_at]
  unfold attention
  exact congrArg (fun r => softmaxFrom negInf r j) (funext fun k => v17_at X A d i k)

/-- Stage 29: the channels weighed by column j of the attention. -/
theorem v29_at (d : Fin 8) (j : Fin 512) (k : Fin 4096) :
    val_main_v29 (F := Ideal) X A (ix3 d j k)
      = ∑ i : Fin 512, attention negInf (smp X d) (fun i j => A (ix3 d i j)) i j * smp X d i k := by
  rw [val_main_v29_apply]
  refine Finset.sum_congr rfl fun i _ => ?_
  rw [show lidx_main_v29 (ix3 d j k) i = ix3 d i j from funext fun a => by match a with | ⟨0, _⟩ => rfl | ⟨1, _⟩ => rfl | ⟨2, _⟩ => rfl,
    show ridx_main_v29 (ix3 d j k) i = ix3 d i k from funext fun a => by match a with | ⟨0, _⟩ => rfl | ⟨1, _⟩ => rfl | ⟨2, _⟩ => rfl,
    attention_at]

/-- Re-laying [8, 512, 64, 64] as [8, 512, 4096] and back returns to the same index. -/
theorem idx_roundtrip (i : S8x512x64x64.Idx) : idx_main_v0 (idx_main_v30 i) = i := by
  have h0 : (i 0).val < 8 := (i 0).isLt
  have h1 : (i 1).val < 512 := (i 1).isLt
  have h2 : (i 2).val < 64 := (i 2).isLt
  have h3 : (i 3).val < 64 := (i 3).isLt
  funext a
  apply Fin.ext
  match a with
  | ⟨0, _⟩ =>
    show ((((((i 0).val * 512 + (i 1).val) * 64 + (i 2).val) * 64 + (i 3).val) / 2097152 * 512 + ((((i 0).val * 512 + (i 1).val) * 64 + (i 2).val) * 64 + (i 3).val) / 4096 % 512) * 4096 + ((((i 0).val * 512 + (i 1).val) * 64 + (i 2).val) * 64 + (i 3).val) % 4096) / 2097152 = (i 0).val
    omega
  | ⟨1, _⟩ =>
    show ((((((i 0).val * 512 + (i 1).val) * 64 + (i 2).val) * 64 + (i 3).val) / 2097152 * 512 + ((((i 0).val * 512 + (i 1).val) * 64 + (i 2).val) * 64 + (i 3).val) / 4096 % 512) * 4096 + ((((i 0).val * 512 + (i 1).val) * 64 + (i 2).val) * 64 + (i 3).val) % 4096) / 4096 % 512 = (i 1).val
    omega
  | ⟨2, _⟩ =>
    show ((((((i 0).val * 512 + (i 1).val) * 64 + (i 2).val) * 64 + (i 3).val) / 2097152 * 512 + ((((i 0).val * 512 + (i 1).val) * 64 + (i 2).val) * 64 + (i 3).val) / 4096 % 512) * 4096 + ((((i 0).val * 512 + (i 1).val) * 64 + (i 2).val) * 64 + (i 3).val) % 4096) / 64 % 64 = (i 2).val
    omega
  | ⟨3, _⟩ =>
    show ((((((i 0).val * 512 + (i 1).val) * 64 + (i 2).val) * 64 + (i 3).val) / 2097152 * 512 + ((((i 0).val * 512 + (i 1).val) * 64 + (i 2).val) * 64 + (i 3).val) / 4096 % 512) * 4096 + ((((i 0).val * 512 + (i 1).val) * 64 + (i 2).val) * 64 + (i 3).val) % 4096) % 64 = (i 3).val
    omega

/-- Any [8, 512, 4096] array re-laid as [8, 512, 64, 64] reads, at i, the array at the re-laid index. -/
theorem relay_apply (Y : S8x512x4096.Idx → EReal) (i : S8x512x64x64.Idx) :
    shapeCast S8x512x64x64 Y shapeCasts_S8x512x4096_S8x512x64x64 i = Y (idx_main_v30 i) :=
  shapeCast_apply Y shapeCasts_S8x512x4096_S8x512x64x64 i (idx_main_v30 i)
    (by rewrite [Shape.rowMajor_val_three, Shape.rowMajor_val_four]; have h0 : (i 0).val < 8 := (i 0).isLt; have h1 : (i 1).val < 512 := (i 1).isLt; have h2 : (i 2).val < 64 := (i 2).isLt; have h3 : (i 3).val < 64 := (i 3).isLt; show (((((i 0).val * 512 + (i 1).val) * 64 + (i 2).val) * 64 + (i 3).val) / 2097152 * 512 + ((((i 0).val * 512 + (i 1).val) * 64 + (i 2).val) * 64 + (i 3).val) / 4096 % 512) * 4096 + ((((i 0).val * 512 + (i 1).val) * 64 + (i 2).val) * 64 + (i 3).val) % 4096 = (((i 0).val * 512 + (i 1).val) * 64 + (i 2).val) * 64 + (i 3).val; omega)

/-- The reference's result: the stack of attended values of the re-laid input, re-laid back. -/
theorem result_eq :
    val_main_v34 (F := Ideal) X A Γ
      = shapeCast S8x512x64x64 (attendedStack negInf (val_main_v0 (F := Ideal) X) A (Γ (ix1 (0 : Fin 1))))
          shapeCasts_S8x512x4096_S8x512x64x64 := by
  funext i
  rw [relay_apply, val_main_v34_apply, val_main_v33_apply, val_main_v32_apply, val_main_v31_apply, val_main_v30_apply]
  obtain ⟨d, j, k, hy⟩ : ∃ (d : Fin 8) (j : Fin 512) (k : Fin 4096), idx_main_v30 i = ix3 d j k := ⟨_, _, _, eq_ix3 _⟩
  have hx : X i = smp X d j k := by
    show X i = val_main_v0 (F := Ideal) X (ix3 d j k)
    rw [← hy, val_main_v0_apply, idx_roundtrip]
  have hg : idx_main_v31 (idx_main_v32 i) = ix1 (0 : Fin 1) := funext fun a => by match a with | ⟨0, _⟩ => rfl
  rw [hy, v29_at, hx, hg, attendedStack_apply, Ideal.addf_def, Ideal.mulf_def]
  rfl

end Cert.ReferenceIdeal.RefValue

end
-- ==== Proof.lean ====
/- The kernel and its reference compute the same attention between channels.

   Input x : [8, 512, 64, 64] is eight samples of 512 channels over 4096 positions; atten : [8, 512, 512] a bias
   per sample; gamma : [1] a scale.  For each sample the energies of the channels (their inner products over the
   positions) are turned round (row maximum minus entry), sent through a row softmax, added to the bias and sent
   through a second row softmax; column j of this attention weighs the channels into output channel j, which is
   scaled by gamma and added to the input.

   The kernel does this one sample per grid point, the output filled by eight stores of 512 positions each; the
   reference does it for the whole stack with batched products.  Over the extended reals both are the same
   function of the arguments, index by index (`Cert.ChannelAttention.attendedStack` of the re-laid input): the
   kernel's side is `Cert.KernelIdeal.KValue.run`, the reference's its generated run read stage by stage
   (`Cert.ReferenceIdeal.RefValue.result_eq`).  The one difference in form — the reference takes the larger of
   -inf and each row maximum — is no difference in value, a maximum taken from -inf being above it.  No
   finiteness of the inputs is used.  The ideal pass rewrote nothing, so `preserves` is trivial; the three
   frames are the generated ones, the reference's being its run with the result dropped. -/
import proofs.«168826_j19928648253730_2_alg».proof.Defs
import proofs.«168826_j19928648253730_2_alg».proof.Proof.Gen.Kernel
import proofs.«168826_j19928648253730_2_alg».proof.Proof.Gen.Kernel.Skeleton
import proofs.«168826_j19928648253730_2_alg».proof.Proof.Gen.Kernel.Launch
import proofs.«168826_j19928648253730_2_alg».proof.Proof.Gen.Kernel.Points
import proofs.«168826_j19928648253730_2_alg».proof.Proof.Gen.Kernel.Frame
import proofs.«168826_j19928648253730_2_alg».proof.Proof.Gen.KernelIdeal
import proofs.«168826_j19928648253730_2_alg».proof.Proof.Gen.KernelIdeal.Skeleton
import proofs.«168826_j19928648253730_2_alg».proof.Proof.Gen.KernelIdeal.Launch
import proofs.«168826_j19928648253730_2_alg».proof.Proof.Gen.KernelIdeal.Points
import proofs.«168826_j19928648253730_2_alg».proof.Proof.Gen.KernelIdeal.Frame
import proofs.«168826_j19928648253730_2_alg».proof.Proof.Gen.ReferenceIdeal
import proofs.«168826_j19928648253730_2_alg».proof.Proof.Gen.ReferenceIdeal.Run
import proofs.«168826_j19928648253730_2_alg».proof.Proof.Gen.ReferenceIdeal.Read
import proofs.«168826_j19928648253730_2_alg».proof.Proof.Gen.Pre_finite_inputs
import proofs.«168826_j19928648253730_2_alg».proof.Proof.KernelValue
import proofs.«168826_j19928648253730_2_alg».proof.Proof.RefStages
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the re-laid stack of attended values. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v34_eq, Cert.ReferenceIdeal.RefValue.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
